-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000 : Shape := ⟨1, ![2000000]⟩
abbrev S2000000x128 : Shape := ⟨2, ![2000000, 128]⟩
abbrev S8x128 : Shape := ⟨2, ![8, 128]⟩
abbrev S_ : Shape := ⟨0, ![]⟩

class Facts : Prop where
  bcast_S_S2000000x128 : S_.BroadcastsInDim S2000000x128 (![] : Fin 0 → Fin S2000000x128.rank)
  reducesTo_S2000000x128_S_d0_1 : S2000000x128.ReducesTo [0, 1] S_
  h_S_ : 0 < S_.numel
  bcast_S_S8x128 : S_.BroadcastsInDim S8x128 (![] : Fin 0 → Fin S8x128.rank)
  reducesTo_S8x128_S_d0_1 : S8x128.ReducesTo [0, 1] S_
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg0 : IVec S2000000 32) (main_v13 : IVec S_ 1) (main_v15 : IVec S2000000 1) (main_c_5 : IVec S_ 1) : IVec S_ 1 :=
  let main_v16 : IVec S_ 1 := (fun x v => Host.reduce IntOp.andi x v reducesTo_S2000000_S_d0 h_S_) main_v15 main_c_5
  let main_v17 : IVec S_ 1 := andi main_v13 main_v16
  let main_c_6 : IVec S_ 32 := constantI S_ 32 8#32
  let main_v18 : IVec S2000000 32 := broadcastInDim S2000000 ![] bcast_S_S2000000 main_c_6
  let main_v19 : IVec S2000000 1 := cmpi .slt main_arg0 main_v18
  let main_c_7 : IVec S_ 1 := constantI S_ 1 1#1
  let main_v20 : IVec S_ 1 := (fun x v => Host.reduce IntOp.andi x v reducesTo_S2000000_S_d0 h_S_) main_v19 main_c_7
  let main_v21 : IVec S_ 1 := andi main_v17 main_v20
  main_v21

def fn {F : FTy → Type} [FloatOps F] (main_arg0 : IVec S2000000 32) (main_arg1 : FVec F S2000000x128 .f32) (main_arg2 : FVec F S8x128 .f32) (main_arg3 : FVec F S8x128 .f32) : IVec S_ 1 :=
  let main_v0 : FVec F S2000000x128 .f32 := Host.absf main_arg1
  let main_cst : FVec F S_ .f32 := constant S_ .f32 0x7F800000#32
  let main_v1 : FVec F S2000000x128 .f32 := broadcastInDim S2000000x128 ![] bcast_S_S2000000x128 main_cst
  let main_v2 : IVec S2000000x128 1 := cmpf .olt main_v0 main_v1
  let main_c : IVec S_ 1 := constantI S_ 1 1#1
  let main_v3 : IVec S_ 1 := (fun x v => Host.reduce IntOp.andi x v reducesTo_S2000000x128_S_d0_1 h_S_) main_v2 main_c
  let main_v4 : FVec F S8x128 .f32 := Host.absf main_arg2
  let main_cst_0 : FVec F S_ .f32 := constant S_ .f32 0x7F800000#32
  let main_v5 : FVec F S8x128 .f32 := broadcastInDim S8x128 ![] bcast_S_S8x128 main_cst_0
  let main_v6 : IVec S8x128 1 := cmpf .olt main_v4 main_v5
  let main_c_1 : IVec S_ 1 := constantI S_ 1 1#1
  let main_v7 : IVec S_ 1 := (fun x v => Host.reduce IntOp.andi x v reducesTo_S8x128_S_d0_1 h_S_) main_v6 main_c_1
  let main_v8 : IVec S_ 1 := andi main_v3 main_v7
  let main_v9 : FVec F S8x128 .f32 := Host.absf main_arg3
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_c_4 : IVec S_ 32 := constantI S_ 32 0#32
  let main_v14 : IVec S2000000 32 := broadcastInDim S2000000 ![] bcast_S_S2000000 main_c_4
  let main_v15 : IVec S2000000 1 := cmpi .sge main_arg0 main_v14
  let main_c_5 : IVec S_ 1 := constantI S_ 1 1#1
  fn_part1 (F := F) main_arg0 main_v13 main_v15 main_c_5
-- ==== Kernel.lean ====
abbrev S2000000 : Shape := ⟨1, ![2000000]⟩
abbrev S2000000x128 : Shape := ⟨2, ![2000000, 128]⟩
abbrev S8x128 : Shape := ⟨2, ![8, 128]⟩
abbrev S2000000x1 : Shape := ⟨2, ![2000000, 1]⟩
abbrev S10000x1 : Shape := ⟨2, ![10000, 1]⟩
abbrev S10000x128 : Shape := ⟨2, ![10000, 128]⟩
abbrev S128x1 : Shape := ⟨2, ![128, 1]⟩
abbrev S10000x8 : Shape := ⟨2, ![10000, 8]⟩

abbrev nBuf : Space → Nat
  | .hbm => 6
  | .vmem => 8
  | .smem => 0
  | _ => 0

abbrev bufTy : (tb : Table) → Fin (tcTables nBuf tb) → BufTy
  | .hbm, ⟨0, _⟩ => ⟨S2000000, .i32⟩
  | .hbm, ⟨1, _⟩ => ⟨S2000000x128, .f32⟩
  | .hbm, ⟨2, _⟩ => ⟨S8x128, .f32⟩
  | .hbm, ⟨3, _⟩ => ⟨S8x128, .f32⟩
  | .hbm, ⟨4, _⟩ => ⟨S2000000x1, .i32⟩
  | .hbm, ⟨5, _⟩ => ⟨S2000000x128, .f32⟩
  | .local _ .vmem, ⟨0, _⟩ => ⟨S10000x1, .i32⟩
  | .local _ .vmem, ⟨1, _⟩ => ⟨S10000x1, .i32⟩
  | .local _ .vmem, ⟨2, _⟩ => ⟨S10000x128, .f32⟩
  | .local _ .vmem, ⟨3, _⟩ => ⟨S10000x128, .f32⟩
  | .local _ .vmem, ⟨4, _⟩ => ⟨S8x128, .f32⟩
  | .local _ .vmem, ⟨5, _⟩ => ⟨S8x128, .f32⟩
  | .local _ .vmem, ⟨6, _⟩ => ⟨S10000x128, .f32⟩
  | .local _ .vmem, ⟨7, _⟩ => ⟨S10000x128, .f32⟩
  | _, _ => ⟨S2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2000000_S2000000x1 : S2000000.ShapeCasts S2000000x1
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x8_d1_w32 : S10000x8.Iotas .tc 32 [1]
  broadcasts_S10000x1_S10000x8 : S10000x1.Broadcasts S10000x8
  natLt_1_32 : 1 < 32
  inb_S8x128_S8x128_0_0 : ∀ a, (![0, 0] : Fin 2 → Nat) a + S8x128.size a ≤ S8x128.size a
  h_S8x128 : 0 < S8x128.numel
  broadcasts_S10000x1_S10000x128 : S10000x1.Broadcasts S10000x128
  dot_S10000x128_S128x1_S10000x1_1_0_0_1_n_n_wf : DotDims.WF S10000x128 S128x1 S10000x1 [1] [0] [0] [1] [] []
  dot_S10000x8_S8x128_S10000x128_1_0_0_1_n_n_wf : DotDims.WF S10000x8 S8x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S2000000x1.size a
  hwx0_0 : ∀ i : grid0.Coords, EltTy.bits .i32 = 32 ∨ (Rect.block (s := S2000000x1) S10000x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S2000000x128.size a
  hwx0_1 : ∀ i : grid0.Coords, EltTy.bits .f32 = 32 ∨ (Rect.block (s := S2000000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S2000000x128.size a
  hwx0_4 : ∀ i : grid0.Coords, EltTy.bits .f32 = 32 ∨ (Rect.block (s := S2000000x128) S10000x128.size (cc0_transform_4 i) (hinb0_4 i)).WholeWords (EltTy.packing .f32)

variable [Facts₀]

def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def dot_S10000x8_S8x128_S10000x128_1_0_0_1_n_n : DotDims S10000x8 S8x128 S10000x128 where
  lhsContracting := [1]
  rhsContracting := [0]
  lhsNonContracting := [0]
  rhsNonContracting := [1]
  lhsBatch := []
  rhsBatch := []
  wf := dot_S10000x8_S8x128_S10000x128_1_0_0_1_n_n_wf

abbrev win0_0 : Pipeline.Window sig grid0 :=
  Pipeline.Window.ofSpec (Memref.whole main_v0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2000000 : Shape := ⟨1, ![2000000]⟩
abbrev S2000000x128 : Shape := ⟨2, ![2000000, 128]⟩
abbrev S8x128 : Shape := ⟨2, ![8, 128]⟩
abbrev S_ : Shape := ⟨0, ![]⟩
abbrev S2000000x1 : Shape := ⟨2, ![2000000, 1]⟩

abbrev nBuf : Space → Nat
  | .hbm => 47
  | .vmem => 0
  | .smem => 0
  | _ => 0

abbrev bufTy : (tb : Table) → Fin (tcTables nBuf tb) → BufTy
  | .hbm, ⟨0, _⟩ => ⟨S2000000, .i32⟩
  | .hbm, ⟨1, _⟩ => ⟨S2000000x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S2000000, .f32⟩
  | .hbm, ⟨6, _⟩ => ⟨S2000000x1, .f32⟩
  | .hbm, ⟨7, _⟩ => ⟨S_, .f32⟩
  | .hbm, ⟨8, _⟩ => ⟨S2000000x1, .f32⟩
  | .hbm, ⟨9, _⟩ => ⟨S2000000x1, .f32⟩
  | .hbm, ⟨10, _⟩ => ⟨S2000000x128, .f32⟩
  | .hbm, ⟨11, _⟩ => ⟨S2000000x128, .f32⟩
  | .hbm, ⟨12, _⟩ => ⟨S2000000x128, .f32⟩
  | .hbm, ⟨13, _⟩ => ⟨S_, .f32⟩
  | .hbm, ⟨14, _⟩ => ⟨S2000000, .f32⟩
  | .hbm, ⟨15, _⟩ => ⟨S2000000x1, .f32⟩
  | .hbm, ⟨16, _⟩ => ⟨S_, .f32⟩
  | .hbm, ⟨17, _⟩ => ⟨S2000000x1, .f32⟩
  | .hbm, ⟨18, _⟩ => ⟨S2000000x1, .f32⟩
  | .hbm, ⟨19, _⟩ => ⟨S2000000x128, .f32⟩
  | .hbm, ⟨20, _⟩ => ⟨S2000000x128, .f32⟩
  | .hbm, ⟨21, _⟩ => ⟨S_, .f32⟩
  | .hbm, ⟨22, _⟩ => ⟨S2000000x1, .f32⟩
  | .hbm, ⟨23, _⟩ => ⟨S2000000x1, .f32⟩
  | .hbm, ⟨24, _⟩ => ⟨S2000000x1, .f32⟩
  | .hbm, ⟨25, _⟩ => ⟨S2000000x128, .f32⟩
  | .hbm, ⟨26, _⟩ => ⟨S2000000x128, .f32⟩
  | .hbm, ⟨27, _⟩ => ⟨S_, .i32⟩
  | .hbm, ⟨28, _⟩ => ⟨S2000000, .i32⟩
  | .hbm, ⟨29, _⟩ => ⟨S2000000, .i1⟩
  | .hbm, ⟨30, _⟩ => ⟨S_, .i32⟩
  | .hbm, ⟨31, _⟩ => ⟨S2000000, .i32⟩
  | .hbm, ⟨32, _⟩ => ⟨S2000000, .i32⟩
  | .hbm, ⟨33, _⟩ => ⟨S2000000, .i32⟩
  | .hbm, ⟨34, _⟩ => ⟨S2000000x1, .i32⟩
  | .hbm, ⟨35, _⟩ => ⟨S2000000x128, .f32⟩
  | .hbm, ⟨36, _⟩ => ⟨S_, .i32⟩
  | .hbm, ⟨37, _⟩ => ⟨S2000000, .i32⟩
  | .hbm, ⟨38, _⟩ => ⟨S2000000, .i1⟩
  | .hbm, ⟨39, _⟩ => ⟨S_, .i32⟩
  | .hbm, ⟨40, _⟩ => ⟨S2000000, .i32⟩
  | .hbm, ⟨41, _⟩ => ⟨S2000000, .i32⟩
  | .hbm, ⟨42, _⟩ => ⟨S2000000, .i32⟩
  | .hbm, ⟨43, _⟩ => ⟨S2000000x1, .i32⟩
  | .hbm, ⟨44, _⟩ => ⟨S2000000x128, .f32⟩
  | .hbm, ⟨45, _⟩ => ⟨S2000000x128, .f32⟩
  | .hbm, ⟨46, _⟩ => ⟨S2000000x128, .f32⟩
  | _, _ => ⟨S2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  reducesTo_S2000000x128_S2000000_d1 : S2000000x128.ReducesTo [1] S2000000
  h_S_ : 0 < S_.numel
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S2000000x1_S2000000x128_0_1 : S2000000x1.BroadcastsInDim S2000000x128 (![0, 1] : Fin 2 → Fin S2000000x128.rank)
  bcast_S_S2000000 : S_.BroadcastsInDim S2000000 (![] : Fin 0 → Fin S2000000.rank)
  gather_S8x128_S2000000x1_S2000000x128_1_0_n_n_0_1_1128_wf : GatherDims.WF S8x128 S2000000x1 S2000000x128 [1] [0] [] [0] [] 1 ![1, 128]

variable [Facts₀]

def gather_S8x128_S2000000x1_S2000000x128_1_0_n_n_0_1_1128 : GatherDims S8x128 S2000000x1 S2000000x128 where
  offsetDims := [1]
  collapsedSliceDims := [0]
  operandBatchingDims := []
  startIndicesBatchingDims := []
  startIndexMap := [0]
  indexVectorDim := 1
  sliceSizes := ![1, 128]
  wf := gather_S8x128_S2000000x1_S2000000x128_1_0_n_n_0_1_1128_wf

class Facts : Prop extends Facts₀ where

variable [Facts]
-- ==== Proof.RowNorm.lean ====
/-
  Row normalisation followed by a per-type affine map, as two scalar formulas over the extended reals, and the law
  that joins them.

  For one row x : Fin 128 → EReal of the feature array, a 32-bit type word t and the two parameter tables'
  columns g b : Fin 8 → EReal:

  * kerRow is the formula the kernel evaluates: the mean as (Σ x) · 2⁻⁷, the variance in the ONE-PASS form
    max (Σ x² · 2⁻⁷ − mean², 0), the scale and shift looked up by a one-hot weighted sum Σ_j [t = j] · g j, and
    the result grouped (x − mean) · (rsqrt(var + ε) · scale) + shift;
  * refRow is the textbook formula: the mean as (Σ x) / 128, the variance in the TWO-PASS form
    Σ (x − mean)² / 128, the scale and shift given directly, grouped ((x − mean) · rsqrt(var + ε)) · scale + shift.

  When every entry of the row is a real number the two variances are one real number (Σ (x−μ)² = Σ x² − 128 μ²,
  and a sum of squares is non-negative, so the max with 0 is idle), and when the type word is a table row n < 8
  the one-hot sum is the n-th entry; the rest is associativity of the product. Nothing is asked of ε, of the
  tables' entries or of rsqrt: both formulas apply the same rsqrt to the same argument.
-/
import Idealize.ShloMosaic.PureOps.Ideal
import Idealize.ShloMosaic.PureOps.Ideal.Laws

noncomputable section

open scoped BigOperators

namespace Cert.TypeNorm

open Idealize.ShloMosaic

/-! ## The float words the two formulas spell, as extended reals -/

/-- The word of 1.0 denotes 1. -/
theorem ofBits_one : Ideal.ofBits .f32 0x3F800000#32 = 1 := by
  simp [Ideal.ofBits, Ideal.ieee, -EReal.coe_mul]; norm_num

/-- The word of 0.0078125 denotes the dyadic 2⁻⁷ = 1/128 exactly. -/
theorem ofBits_inv128 : Ideal.ofBits .f32 0x3C000000#32 = ((1 / 128 : ℝ) : EReal) := by
  simp [Ideal.ofBits, Ideal.ieee, -EReal.coe_mul]; norm_num

/-- The word of 128.0 denotes 128. -/
theorem ofBits_128 : Ideal.ofBits .f32 0x43000000#32 = ((128 : ℝ) : EReal) := by
  simp [Ideal.ofBits, Ideal.ieee, -EReal.coe_mul]; norm_num

/-! ## A finite sum of reals, read in the extended reals -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The one-hot weight -/

/-- The weight the kernel gives table row j on a row of type word t: the comparison bit "t = j", widened to a
    32-bit word and converted to a float: 1 when the word is j, 0 otherwise. -/
def hot (t : BitVec 32) (j : Fin 8) : EReal :=
  ((((IntOp.cmpi .eq t (BitVec.ofNat 32 j.val)).setWidth 32).toInt : ℝ) : EReal)

theorem hot_eq (t : BitVec 32) (j : Fin 8) : hot t j = if t = BitVec.ofNat 32 j.val then 1 else 0 := by
  unfold hot IntOp.cmpi
  by_cases h : t = BitVec.ofNat 32 j.val
  · rw [if_pos h]; subst h; simp
  · rw [if_neg h]
    have hb : (t == BitVec.ofNat 32 j.val) = false := by simpa using h
    simp [hb]

/-- A word whose value is the table row n is the word of n, and of no other row. -/
theorem word_eq_iff (t : BitVec 32) (n j : Fin 8) (h : t.toNat = n.val) : t = BitVec.ofNat 32 j.val ↔ j = n := by
  constructor
  · intro e
    have := congrArg BitVec.toNat e
    rw [h, BitVec.toNat_ofNat] at this
    have hj := j.isLt
    exact Fin.ext (by omega)
  · rintro rfl
    apply BitVec.eq_of_toNat_eq
    rw [h, BitVec.toNat_ofNat]
    have hj := j.isLt
    omega

/-- The one-hot weighted sum over the table's eight rows picks the row the type word names. -/
theorem hot_sum (t : BitVec 32) (n : Fin 8) (h : t.toNat = n.val) (g : Fin 8 → EReal) : ∑ j, hot t j * g j = g n := by
  rw [Finset.sum_eq_single n]
  · rw [hot_eq, if_pos ((word_eq_iff t n n h).2 rfl), one_mul]
  · intro j _ hj
    rw [hot_eq, if_neg (fun e => hj ((word_eq_iff t n j h).1 e)), zero_mul]
  · intro hn; exact absurd (Finset.mem_univ n) hn

/-! ## The two formulas -/

/-- The kernel's mean of a row: its sum (each entry times 1.0, as a product with a column of ones gives it) times 2⁻⁷. -/
def kMean (x : Fin 128 → EReal) : EReal :=
  (∑ k, x k * Ideal.ofBits .f32 0x3F800000#32) * Ideal.ofBits .f32 0x3C000000#32

/-- The kernel's variance of a row, one pass: the mean of the squares minus the square of the mean, clipped at 0. -/
def kVar (x : Fin 128 → EReal) : EReal :=
  max ((∑ k, x k * x k * Ideal.ofBits .f32 0x3F800000#32) * Ideal.ofBits .f32 0x3C000000#32 - kMean x * kMean x)
    (Ideal.ofBits .f32 0x00000000#32)

/-- The reference's mean of a row: its sum (from 0.0) divided by 128.0. -/
def rMean (x : Fin 128 → EReal) : EReal :=
  Ideal.div (Ideal.ofBits .f32 0x00000000#32 + ∑ k, x k) (Ideal.ofBits .f32 0x43000000#32)

/-- The reference's variance of a row, two passes: the sum of the squared deviations from the mean, divided by 128.0. -/
def rVar (x : Fin 128 → EReal) : EReal :=
  Ideal.div (Ideal.ofBits .f32 0x00000000#32 + ∑ k, (x k - rMean x) * (x k - rMean x)) (Ideal.ofBits .f32 0x43000000#32)

/-- The kernel's result at column q of a row x with type word t, over the tables' columns g, b. -/
def kerRow (x : Fin 128 → EReal) (t : BitVec 32) (g b : Fin 8 → EReal) (q : Fin 128) : EReal :=
  (x q - kMean x) * (Ideal.rsqrt (kVar x + Ideal.ofBits .f32 0x3727C5AC#32) * ∑ j, hot t j * g j) + ∑ j, hot t j * b j

/-- The reference's result at column q of a row x, given the row's scale gq and shift bq. -/
def refRow (x : Fin 128 → EReal) (gq bq : EReal) (q : Fin 128) : EReal :=
  (x q - rMean x) * Ideal.rsqrt (rVar x + Ideal.ofBits .f32 0x3727C5AC#32) * gq + bq

/-! ## On a row of real numbers -/

section Real
variable (r : Fin 128 → ℝ)

/-- The mean of a real row, in ℝ. -/
def mu : ℝ := (∑ k, r k) / 128

theorem kMean_real : kMean (fun k => (r k : EReal)) = ((mu r : ℝ) : EReal) := by
  unfold kMean mu
  simp only [ofBits_one, mul_one, ofBits_inv128]
  rw [← coe_sum, ← EReal.coe_mul]
  congr 1; ring

theorem rMean_real : rMean (fun k => (r k : EReal)) = ((mu r : ℝ) : EReal) := by
  unfold rMean mu
  rw [Ideal.ofBits_zero_f32, zero_add, ofBits_128, Ideal.div_coe (by norm_num : (128 : ℝ) ≠ 0), ← coe_sum, ← EReal.coe_mul]
  congr 1; ring

/-- The variance identity in ℝ: the mean of the squares minus the squared mean is the mean of the squared deviations. -/
theorem var_identity : (∑ k, r k * r k) * (1 / 128) - mu r * mu r = (∑ k, (r k - mu r) * (r k - mu r)) / 128 := by
  have h : ∀ k, (r k - mu r) * (r k - mu r) = r k * r k - 2 * mu r * r k + mu r * mu r := fun k => by ring
  simp only [h, Finset.sum_add_distrib, Finset.sum_sub_distrib, ← Finset.mul_sum, Finset.sum_const, Finset.card_univ,
    Fintype.card_fin, nsmul_eq_mul]
  have hs : (∑ k, r k) = 128 * mu r := by unfold mu; ring
  rw [hs]; push_cast; ring

theorem var_nonneg : 0 ≤ (∑ k, (r k - mu r) * (r k - mu r)) / 128 :=
  div_nonneg (Finset.sum_nonneg fun k _ => mul_self_nonneg _) (by norm_num)

theorem kVar_real : kVar (fun k => (r k : EReal)) = (((∑ k, (r k - mu r) * (r k - mu r)) / 128 : ℝ) : EReal) := by
  unfold kVar
  rw [kMean_real]
  simp only [ofBits_one, mul_one, ofBits_inv128, Ideal.ofBits_zero_f32]
  simp only [← EReal.coe_mul]
  rw [← coe_sum, ← EReal.coe_mul, ← EReal.coe_sub, var_identity, ← EReal.coe_zero,
    max_eq_left (EReal.coe_le_coe_iff.2 (var_nonneg r))]

theorem rVar_real : rVar (fun k => (r k : EReal)) = (((∑ k, (r k - mu r) * (r k - mu r)) / 128 : ℝ) : EReal) := by
  unfold rVar
  rw [rMean_real, Ideal.ofBits_zero_f32, zero_add, ofBits_128, Ideal.div_coe (by norm_num : (128 : ℝ) ≠ 0)]
  simp only [← EReal.coe_sub, ← EReal.coe_mul]
  rw [← coe_sum, ← EReal.coe_mul]
  congr 1; ring

end Real

/-! ## The law -/

/-- On a row of real numbers whose type word names table row n, the kernel's formula is the reference's at the
    n-th scale and shift. -/
theorem kerRow_eq_refRow (x : Fin 128 → EReal) (t : BitVec 32) (g b : Fin 8 → EReal) (q : Fin 128) (n : Fin 8)
    (hx : ∀ k, ∃ r : ℝ, x k = (r : EReal)) (ht : t.toNat = n.val) :
    kerRow x t g b q = refRow x (g n) (b n) q := by
  choose r hr using hx
  obtain rfl : x = fun k => (r k : EReal) := funext hr
  unfold kerRow refRow
  rw [kMean_real, rMean_real, kVar_real, rVar_real, hot_sum t n ht, hot_sum t n ht, mul_assoc]

end Cert.TypeNorm

end
-- ==== Proof.RefRow.lean ====
/-
  The reference program read at one entry.  Its result at row r, column q is the textbook formula of RowNorm
  (refRow) of row r of the feature array, with the scale and shift taken from the parameter tables at the row the
  gather clamps the (wrapped) type word to; when the type word is a table row n < 8, neither the wrap of negative
  indices nor the clamp moves it, and that row is n.
-/
import proofs.«144861_g51488067944936_feedfinal_406_6_alg».proof.Proof.Gen.ReferenceIdeal.Read
import proofs.«144861_g51488067944936_feedfinal_406_6_alg».proof.Proof.RowNorm
import Idealize.ShloMosaic.Lib.ValueIdx
import Idealize.ShloMosaic.Lib.Affine

noncomputable section

open scoped BigOperators

namespace Cert.TypeNorm.Ref

open Cert.ReferenceIdeal Cert.ReferenceIdeal.Gen Cert.ReferenceIdeal.Read Idealize.ShloMosaic Idealize.ShloMosaic.ValueIdx
open Cert.TypeNorm

/-! ## The gather of a table row -/

/-- The gather of whole rows of an 8 x 128 table at a column of start indices, read at (r, q): the table at column q
    of the row the r-th start index, read signed, clamps to. -/
theorem gather_row {α : Type} (x : S8x128.Idx → α) (idx : IVec S2000000x1 32) (r : Fin 2000000) (q : Fin 128) :
    Host.gather gather_S8x128_S2000000x1_S2000000x128_1_0_n_n_0_1_1128 x idx (ix2 r q)
      = x (ix2 (⟨min (idx (ix2 r (0 : Fin 1))).toInt.toNat 7, by omega⟩ : Fin 8) q) := by
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8x128_S2000000x1_S2000000x128_1_0_n_n_0_1_1128.startIndexMap from List.mem_singleton.mpr rfl)]
    have hsi : gather_S8x128_S2000000x1_S2000000x128_1_0_n_n_0_1_1128.siIdx (ix2 r q)
        ⟨List.idxOf (0 : Fin 2) gather_S8x128_S2000000x1_S2000000x128_1_0_n_n_0_1_1128.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show GatherDims.start _ _ idx 1 + GatherDims.batchCoord _ _ 1 + GatherDims.offCoord _ _ 1 = q.val
    have h1 : (1 : Fin 2) ∉ gather_S8x128_S2000000x1_S2000000x128_1_0_n_n_0_1_1128.startIndexMap :=
      fun h => absurd (List.mem_singleton.mp h) (by decide)
    have hk : (1 : Fin 2) ∈ gather_S8x128_S2000000x1_S2000000x128_1_0_n_n_0_1_1128.sKept :=
      (GatherDims.mem_sKept _ _).2 ⟨fun h => absurd (List.mem_singleton.mp h) (by decide), List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-! ## A type word that is a table row is neither wrapped nor clamped -/

/-- jnp's indexing adds 8 to a negative index and the gather clamps into [0, 7]; a word whose value is n < 8 is
    non-negative when read signed, so it stays n. -/
theorem wrap_clamp (t : BitVec 32) (n : Fin 8) (h : t.toNat = n.val) :
    min (Scalar.select (IntOp.cmpi .slt t 0#32) (IntOp.addi t 8#32) t).toInt.toNat 7 = n.val := by
  have hn := n.isLt
  have hi : t.toInt = (n.val : Int) := by
    rw [BitVec.toInt_eq_toNat_cond, h, if_pos (by omega)]
  have hc : IntOp.cmpi .slt t 0#32 = 0#1 := by
    refine eq_zero_of_ne_one fun e => ?_
    have := IntOp.cmpi_slt.1 e
    have h0 : (0#32 : BitVec 32).toInt = 0 := by decide
    rw [hi, h0] at this
    omega
  rw [hc, select_zero, hi]
  simp only [Int.toNat_natCast]
  omega

/-! ## The reference at an entry -/

section
variable (x0 : IVec S2000000 32) (x1 : FVec Ideal S2000000x128 .f32) (x2 x3 : FVec Ideal S8x128 .f32)
variable (r : Fin 2000000)

/-- Row r of the feature array. -/
def row (x1 : FVec Ideal S2000000x128 .f32) (r : Fin 2000000) : Fin 128 → EReal := fun k => x1 (ix2 r k)

theorem e_col (q : Fin 128) : idx_main_v4 (ix2 r q) = ix2 r (0 : Fin 1) :=
  funext fun a => Fin.ext (by match a with | ⟨0, _⟩ => rfl | ⟨1, _⟩ => rfl)
theorem e_col11 (q : Fin 128) : idx_main_v11 (ix2 r q) = ix2 r (0 : Fin 1) :=
  funext fun a => Fin.ext (by match a with | ⟨0, _⟩ => rfl | ⟨1, _⟩ => rfl)
theorem e_col16 (q : Fin 128) : idx_main_v16 (ix2 r q) = ix2 r (0 : Fin 1) :=
  funext fun a => Fin.ext (by match a with | ⟨0, _⟩ => rfl | ⟨1, _⟩ => rfl)
theorem e_vec1 : idx_main_v1 (ix2 r (0 : Fin 1)) = ix1 r :=
  funext fun a => Fin.ext (by match a with | ⟨0, _⟩ => rfl)
theorem e_vec8 : idx_main_v8 (ix2 r (0 : Fin 1)) = ix1 r :=
  funext fun a => Fin.ext (by match a with | ⟨0, _⟩ => rfl)
theorem e_vec23 : idx_main_v23 (ix2 r (0 : Fin 1)) = ix1 r :=
  funext fun a => Fin.ext (by match a with | ⟨0, _⟩ => rfl)
theorem e_vec30 : idx_main_v30 (ix2 r (0 : Fin 1)) = ix1 r :=
  funext fun a => Fin.ext (by match a with | ⟨0, _⟩ => rfl)
theorem e_sum0 (k : Fin 128) : idx_main_v0 (ix1 r) k = ix2 r k :=
  funext fun a => Fin.ext (by match a with | ⟨0, _⟩ => rfl | ⟨1, _⟩ => rfl)
theorem e_sum7 (k : Fin 128) : idx_main_v7 (ix1 r) k = ix2 r k :=
  funext fun a => Fin.ext (by match a with | ⟨0, _⟩ => rfl | ⟨1, _⟩ => rfl)

/-- The reference's mean column at row r is the textbook mean of the row. -/
theorem mean_at : val_main_v3 (F := Ideal) x1 (ix2 r (0 : Fin 1)) = rMean (row x1 r) := by
  rw [val_main_v3_apply, val_main_v1_apply, e_vec1, val_main_v0_apply, val_main_v2_apply, val_main_cst_0_apply,
    val_main_cst_apply]
  simp only [e_sum0, Ideal.hostDivf_def, Ideal.ofBits_def]
  rfl

/-- The reference's variance column at row r is the two-pass variance of the row. -/
theorem var_at : val_main_v10 (F := Ideal) x1 (ix2 r (0 : Fin 1)) = rVar (row x1 r) := by
  rw [val_main_v10_apply, val_main_v8_apply, e_vec8, val_main_v7_apply, val_main_v9_apply, val_main_cst_2_apply,
    val_main_cst_1_apply]
  simp only [e_sum7, val_main_v6_apply, val_main_v5_apply, val_main_v4_apply, e_col, mean_at, Ideal.hostDivf_def,
    Ideal.ofBits_def, Ideal.mulf_def, Ideal.subf_def]
  rfl

/-- THE REFERENCE AT (r, q), when the r-th type word is the table row n. -/
theorem ref_at (q : Fin 128) (n : Fin 8) (hn : (x0 (ix1 r)).toNat = n.val) :
    val_main_v33 (F := Ideal) x0 x1 x2 x3 (ix2 r q) = refRow (row x1 r) (x2 (ix2 n q)) (x3 (ix2 n q)) q := by
  have hg : ∀ (x : FVec Ideal S8x128 .f32) (idx : IVec S2000000x1 32), idx (ix2 r (0 : Fin 1)) =
      Scalar.select (IntOp.cmpi .slt (x0 (ix1 r)) 0#32) (IntOp.addi (x0 (ix1 r)) 8#32) (x0 (ix1 r)) →
      Host.gather gather_S8x128_S2000000x1_S2000000x128_1_0_n_n_0_1_1128 x idx (ix2 r q) = x (ix2 n q) := by
    intro x idx hidx
    rw [gather_row]
    exact congrArg x (congrArg (fun a => ix2 a q) (Fin.ext (by
      show min (idx (ix2 r (0 : Fin 1))).toInt.toNat 7 = n.val
      rw [hidx]; exact wrap_clamp _ n hn)))
  have h24 : val_main_v24 (F := Ideal) x0 x2 (ix2 r q) = x2 (ix2 n q) := by
    unfold val_main_v24
    refine hg x2 _ ?_
    rw [val_main_v23_apply, e_vec23, val_main_v22_apply, val_main_v19_apply, val_main_v21_apply, val_main_v18_apply,
      val_main_v20_apply, val_main_c_apply, val_main_c_4_apply]
  have h31 : val_main_v31 (F := Ideal) x0 x3 (ix2 r q) = x3 (ix2 n q) := by
    unfold val_main_v31
    refine hg x3 _ ?_
    rw [val_main_v30_apply, e_vec30, val_main_v29_apply, val_main_v26_apply, val_main_v28_apply, val_main_v25_apply,
      val_main_v27_apply, val_main_c_5_apply, val_main_c_6_apply]
  rw [val_main_v33_apply, val_main_v32_apply, h24, h31, val_main_v17_apply, val_main_v12_apply, val_main_v11_apply,
    e_col11, mean_at, val_main_v16_apply, e_col16, val_main_v15_apply, val_main_v14_apply, var_at,
    val_main_v13_apply, val_main_cst_3_apply]
  simp only [Ideal.addf_def, Ideal.mulf_def, Ideal.subf_def, Ideal.hostUnary_rsqrt_def, Ideal.ofBits_def]
  rfl

end

end Cert.TypeNorm.Ref

end
-- ==== Proof.KerRow.lean ====
/-
  The kernel's body read at one entry of its output block.  Over a block of 10000 rows the body's stored value at
  (p, q) is the one-pass formula of RowNorm (kerRow) of row p of the feature block, the p-th type word and column q
  of the two parameter tables: the two products with a column of ones are the row's sum and the sum of its squares,
  and the product of the one-hot matrix with a table is the one-hot weighted sum of the table's column.
-/
import proofs.«144861_g51488067944936_feedfinal_406_6_alg».proof.Proof.Gen.KernelIdeal.Skeleton
import proofs.«144861_g51488067944936_feedfinal_406_6_alg».proof.Proof.RowNorm
import Idealize.ShloMosaic.Lib.ValueIdx
import Idealize.ShloMosaic.Lib.Pipeline.Value
import Idealize.ShloMosaic.PureOps.Ideal.Laws

noncomputable section

open scoped BigOperators

namespace Cert.TypeNorm.Ker

open Cert.KernelIdeal Cert.KernelIdeal.Gen Idealize.ShloMosaic Idealize.ShloMosaic.ValueIdx
open Cert.TypeNorm

/-! ## A product with a column: the contraction runs over the row -/

theorem lhsA_0 (i : S10000x1.Idx) (k : dot_S10000x128_S128x1_S10000x1_1_0_0_1_n_n.contr.Idx) :
    (dot_S10000x128_S128x1_S10000x1_1_0_0_1_n_n.lhsIdx i k 0).val = (i 0).val := by
  unfold DotDims.lhsIdx
  rw [dif_neg (show ¬(0 : Fin S10000x128.rank) ∈ dot_S10000x128_S128x1_S10000x1_1_0_0_1_n_n.lhsBatch by decide),
    dif_pos (show (0 : Fin S10000x128.rank) ∈ dot_S10000x128_S128x1_S10000x1_1_0_0_1_n_n.lhsNonContracting by decide)]
  rfl
theorem lhsA_1 (i : S10000x1.Idx) (k : dot_S10000x128_S128x1_S10000x1_1_0_0_1_n_n.contr.Idx) :
    (dot_S10000x128_S128x1_S10000x1_1_0_0_1_n_n.lhsIdx i k 1).val = (k ⟨0, by decide⟩).val :=
  dot_S10000x128_S128x1_S10000x1_1_0_0_1_n_n.lhsIdx_val_of_single rfl i k

/-- The product of a 10000 x 128 block with a constant column, into zero, at row p: the row's sum of entry times the
    constant. -/
theorem colprod_at (lhs : FVec Ideal S10000x128 .f32) (c : Ideal .f32) (p : Fin 10000) :
    matmul dot_S10000x128_S128x1_S10000x1_1_0_0_1_n_n none lhs (broadcast S128x1 c) (constant S10000x1 .f32 0x00000000#32)
      (ix2 p (0 : Fin 1)) = ∑ k : Fin 128, lhs (ix2 p k) * c := by
  simp only [matmul]
  rw [Ideal.matmul_constant_zero_apply,
    ← Equiv.sum_comp (contrEquiv1 dot_S10000x128_S128x1_S10000x1_1_0_0_1_n_n 128 rfl rfl).symm]
  refine Finset.sum_congr rfl fun k _ => ?_
  have hk := contrEquiv1_symm_val dot_S10000x128_S128x1_S10000x1_1_0_0_1_n_n 128 rfl rfl k
  have el : dot_S10000x128_S128x1_S10000x1_1_0_0_1_n_n.lhsIdx (ix2 p (0 : Fin 1))
      ((contrEquiv1 dot_S10000x128_S128x1_S10000x1_1_0_0_1_n_n 128 rfl rfl).symm k) = ix2 p k :=
    funext fun a => Fin.ext (by
      match a with
      | ⟨0, _⟩ => exact lhsA_0 _ _
      | ⟨1, _⟩ => exact (lhsA_1 _ _).trans hk)
  rw [el]
  rfl

/-! ## A product with a table: the contraction runs over the table's rows -/

theorem lhsB_0 (i : S10000x128.Idx) (k : dot_S10000x8_S8x128_S10000x128_1_0_0_1_n_n.contr.Idx) :
    (dot_S10000x8_S8x128_S10000x128_1_0_0_1_n_n.lhsIdx i k 0).val = (i 0).val := by
  unfold DotDims.lhsIdx
  rw [dif_neg (show ¬(0 : Fin S10000x8.rank) ∈ dot_S10000x8_S8x128_S10000x128_1_0_0_1_n_n.lhsBatch by decide),
    dif_pos (show (0 : Fin S10000x8.rank) ∈ dot_S10000x8_S8x128_S10000x128_1_0_0_1_n_n.lhsNonContracting by decide)]
  rfl
theorem lhsB_1 (i : S10000x128.Idx) (k : dot_S10000x8_S8x128_S10000x128_1_0_0_1_n_n.contr.Idx) :
    (dot_S10000x8_S8x128_S10000x128_1_0_0_1_n_n.lhsIdx i k 1).val = (k ⟨0, by decide⟩).val :=
  dot_S10000x8_S8x128_S10000x128_1_0_0_1_n_n.lhsIdx_val_of_single rfl i k
theorem rhsB_0 (i : S10000x128.Idx) (k : dot_S10000x8_S8x128_S10000x128_1_0_0_1_n_n.contr.Idx) :
    (dot_S10000x8_S8x128_S10000x128_1_0_0_1_n_n.rhsIdx i k 0).val = (k ⟨0, by decide⟩).val :=
  dot_S10000x8_S8x128_S10000x128_1_0_0_1_n_n.rhsIdx_val_of_single rfl i k
theorem rhsB_1 (i : S10000x128.Idx) (k : dot_S10000x8_S8x128_S10000x128_1_0_0_1_n_n.contr.Idx) :
    (dot_S10000x8_S8x128_S10000x128_1_0_0_1_n_n.rhsIdx i k 1).val = (i 1).val := by
  unfold DotDims.rhsIdx
  rw [dif_neg (show ¬(1 : Fin S8x128.rank) ∈ dot_S10000x8_S8x128_S10000x128_1_0_0_1_n_n.rhsBatch by decide),
    dif_pos (show (1 : Fin S8x128.rank) ∈ dot_S10000x8_S8x128_S10000x128_1_0_0_1_n_n.rhsNonContracting by decide)]
  rfl

/-- The product of a 10000 x 8 matrix of weights with an 8 x 128 table, into zero, at (p, q): the weighted sum of
    the table's column q by row p's weights. -/
theorem tabprod_at (w : FVec Ideal S10000x8 .f32) (tab : FVec Ideal S8x128 .f32) (p : Fin 10000) (q : Fin 128) :
    matmul dot_S10000x8_S8x128_S10000x128_1_0_0_1_n_n none w tab (constant S10000x128 .f32 0x00000000#32) (ix2 p q)
      = ∑ j : Fin 8, w (ix2 p j) * tab (ix2 j q) := by
  simp only [matmul]
  rw [Ideal.matmul_constant_zero_apply,
    ← Equiv.sum_comp (contrEquiv1 dot_S10000x8_S8x128_S10000x128_1_0_0_1_n_n 8 rfl rfl).symm]
  refine Finset.sum_congr rfl fun k _ => ?_
  have hk := contrEquiv1_symm_val dot_S10000x8_S8x128_S10000x128_1_0_0_1_n_n 8 rfl rfl k
  have el : dot_S10000x8_S8x128_S10000x128_1_0_0_1_n_n.lhsIdx (ix2 p q)
      ((contrEquiv1 dot_S10000x8_S8x128_S10000x128_1_0_0_1_n_n 8 rfl rfl).symm k) = ix2 p k :=
    funext fun a => Fin.ext (by
      match a with
      | ⟨0, _⟩ => exact lhsB_0 _ _
      | ⟨1, _⟩ => exact (lhsB_1 _ _).trans hk)
  have er : dot_S10000x8_S8x128_S10000x128_1_0_0_1_n_n.rhsIdx (ix2 p q)
      ((contrEquiv1 dot_S10000x8_S8x128_S10000x128_1_0_0_1_n_n 8 rfl rfl).symm k) = ix2 k q :=
    funext fun a => Fin.ext (by
      match a with
      | ⟨0, _⟩ => exact (rhsB_0 _ _).trans hk
      | ⟨1, _⟩ => exact rhsB_1 _ _)
  rw [el, er]

/-! ## A column broadcast along the rows, and the one-hot weights -/

/-- A 10000 x 1 column broadcast to 10000 x b reads, at (p, j), the column at row p. -/
theorem colcast_at {α : Type} {b : ℕ} (v : S10000x1.Idx → α) (h : S10000x1.Broadcasts ⟨2, ![10000, b]⟩)
    (p : Fin 10000) (j : Fin b) : broadcastTo ⟨2, ![10000, b]⟩ v h (ix2 p j) = v (ix2 p (0 : Fin 1)) := by
  refine broadcastTo_apply v h (ix2 p j) (ix2 p (0 : Fin 1)) fun ax => ?_
  match ax with
  | ⟨0, _⟩ => rfl
  | ⟨1, _⟩ => rfl

/-- The weight matrix the body builds from the block's type words (compare the word, broadcast along 8 columns, with
    the column number; widen the bit; convert) holds at (p, j) the one-hot weight of row p's word at table row j. -/
theorem onehot_at (v16 : Vec Ideal S10000x1 .i32) (p : Fin 10000) (j : Fin 8) :
    (sitofp .f32 (extui 32 (cmpi .eq (broadcastTo S10000x8 (shapeCast S10000x1 v16 shapeCasts_S10000x1_S10000x1) broadcasts_S10000x1_S10000x8)
        (iota .tc S10000x8 32 [1] iota_S10000x8_d1_w32)) natLt_1_32) : FVec Ideal S10000x8 .f32) (ix2 p j)
      = hot (v16 (ix2 p (0 : Fin 1))) j := by
  rw [sitofp_apply, extui_apply]
  show FloatOps.sitofp .f32 ((IntOp.cmpi .eq (broadcastTo S10000x8 (shapeCast S10000x1 v16 shapeCasts_S10000x1_S10000x1) broadcasts_S10000x1_S10000x8 (ix2 p j))
      (iota .tc S10000x8 32 [1] iota_S10000x8_d1_w32 (ix2 p j))).setWidth 32) = _
  rw [colcast_at, shapeCast_self, iota_single_apply]
  rfl

/-! ## The stored value at an entry -/

/-- THE BODY'S STORED VALUE AT (p, q): the one-pass formula of row p of the feature block, the p-th type word and
    column q of the two tables. -/
theorem pay_at (v0 : Vec Ideal S10000x128 .f32) (v16 : Vec Ideal S10000x1 .i32) (v23 v25 : Vec Ideal S8x128 .f32)
    (p : Fin 10000) (q : Fin 128) :
    k0_pay1 (F := Ideal) v0 v16 v23 v25 (ix2 p q)
      = kerRow (fun k => v0 (ix2 p k)) (v16 (ix2 p (0 : Fin 1))) (fun j => v23 (ix2 j q)) (fun j => v25 (ix2 j q)) q := by
  unfold k0_pay1 kerRow kVar kMean
  simp only [addf_apply, mulf_apply, subf_apply, maximumf_apply, colcast_at, tabprod_at, onehot_at, colprod_at,
    broadcast_apply]
  have hr : ∀ (v : FVec Ideal S10000x1 .f32) (i : S10000x1.Idx), rsqrt v i = Ideal.rsqrt (v i) := fun _ _ => rfl
  simp only [hr, addf_apply, mulf_apply, subf_apply, maximumf_apply, colprod_at, broadcast_apply]
  have ho := onehot_at v16 p
  simp only [ho]
  rfl

end Cert.TypeNorm.Ker

end
-- ==== Proof.KerArray.lean ====
/-
  From blocks to the array.  The kernel's grid has 200 points; point t fetches rows 10000 t .. 10000 t + 9999 of the
  type words and of the feature array, the two whole parameter tables, and writes back the same rows of the result.
  So every block the body sees is a restriction of the argument arrays, what point t writes back is block t of ONE
  function of the argument arrays (kerArr: entry (r, q) is the one-pass row formula of row r), and the blocks cover
  the result array: after the run the result array is that function.
-/
import proofs.«144861_g51488067944936_feedfinal_406_6_alg».proof.Proof.Gen.KernelIdeal.Value
import proofs.«144861_g51488067944936_feedfinal_406_6_alg».proof.Proof.KerRow
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.TypeNorm.KerArr

open Cert.KernelIdeal Cert.KernelIdeal.Gen Cert.KernelIdeal.Value Idealize.ShloMosaic.ValueIdx
open Cert.TypeNorm

/-! ## The whole-array function -/

/-- Entry (r, q) of the kernel's result: the one-pass formula of row r of the features, the r-th type word and
    column q of the two tables. -/
def kerEntry (tw : IVec S2000000 32) (x : FVec Ideal S2000000x128 .f32) (g b : FVec Ideal S8x128 .f32)
    (r : Fin 2000000) (q : Fin 128) : EReal :=
  kerRow (fun k => x (ix2 r k)) (tw (ix1 r)) (fun j => g (ix2 j q)) (fun j => b (ix2 j q)) q

/-- The kernel's result array as one function of the four argument arrays. -/
def kerArr (tw : IVec S2000000 32) (x : FVec Ideal S2000000x128 .f32) (g b : FVec Ideal S8x128 .f32) :
    S2000000x128.Idx → EReal :=
  fun i => kerEntry tw x g b ⟨(i 0).val, idx2_lt0 i⟩ ⟨(i 1).val, idx2_lt1 i⟩

variable (m : (ℓ : Loc nD τ sig) → Buf (Elt Ideal) ℓ) (ρ : Dev nD → PrngReg)

theorem hz : (![0, 0] : Fin 2 → Nat) = fun _ => 0 := funext fun a => by fin_cases a <;> rfl

/-! ## Where each window's block sits -/

/-- The printed index maps over the 200 points: the type words, the features and the result move one block of rows
    per point; the two tables stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The type words as the region finds them: the flat argument viewed as a column. -/
theorem words_entry (c : Dev nD) : (V m c main_v0 : S2000000x1.Idx → BitVec 32)
    = shapeCast S2000000x1 (m ((c : Thread nD τ).loc main_arg0)) shapeCasts_S2000000_S2000000x1 := by
  dsimp only [Gen.V, Gen.hostOps0]
  after_results
  rfl

/-- Row p of point t's block of the type words is word 10000 t + p of the argument. -/
theorem words_blk (c : Dev nD) (t : Fin cfg0.N) (p : Fin 10000) (r : Fin 2000000) (hr : r.val = 10000 * t.val + p.val) :
    (iblk m c 0 t : Vec Ideal S10000x1 .i32) (ix2 p (0 : Fin 1)) = (m ((c : Thread nD τ).loc main_arg0) : S2000000.Idx → BitVec 32) (ix1 r) := by
  obtain ⟨e0, e1, -⟩ := idx_facts t
  unfold iblk
  rw [View.read_apply]
  show (V m c main_v0 : S2000000x1.Idx → BitVec 32) _ = _
  rw [words_entry]
  refine shapeCast_apply _ _ _ (ix1 r) ?_
  rw [Shape.rowMajor_val_one, Shape.rowMajor_val_two]
  show r.val = (win0_0.index t (0 : Fin 2) * 10000 + 1 * p.val) * 1 + (win0_0.index t (1 : Fin 2) * 1 + 1 * 0)
  rw [e0, e1, hr]; omega

/-- Entry (p, k) of point t's block of the features is entry (10000 t + p, k) of the argument. -/
theorem feat_blk (c : Dev nD) (t : Fin cfg0.N) (p : Fin 10000) (k : Fin 128) (r : Fin 2000000) (hr : r.val = 10000 * t.val + p.val) :
    (iblk m c 1 t : Vec Ideal S10000x128 .f32) (ix2 p k) = (m ((c : Thread nD τ).loc main_arg1) : S2000000x128.Idx → EReal) (ix2 r k) := by
  obtain ⟨-, -, e0, e1, -⟩ := idx_facts t
  unfold iblk
  rw [View.read_apply]
  show (V m c main_arg1 : S2000000x128.Idx → EReal) _ = _
  rw [V_main_arg1]
  refine congrArg _ (funext fun a => Fin.ext ?_)
  match a with
  | ⟨0, _⟩ => show win0_1.index t (0 : Fin 2) * 10000 + 1 * p.val = r.val; rw [e0, hr]; omega
  | ⟨1, _⟩ => show win0_1.index t (1 : Fin 2) * 128 + 1 * k.val = k.val; rw [e1]; omega

/-- Every point's block of the scale table is the whole table. -/
theorem scale_blk (c : Dev nD) (t : Fin cfg0.N) (j : Fin 8) (q : Fin 128) :
    (iblk m c 2 t : Vec Ideal S8x128 .f32) (ix2 j q) = (m ((c : Thread nD τ).loc main_arg2) : S8x128.Idx → EReal) (ix2 j q) := by
  obtain ⟨-, -, -, -, e0, e1, -⟩ := idx_facts t
  unfold iblk
  rw [View.read_apply]
  show (V m c main_arg2 : S8x128.Idx → EReal) _ = _
  rw [V_main_arg2]
  refine congrArg _ (funext fun a => Fin.ext ?_)
  match a with
  | ⟨0, _⟩ => show win0_2.index t (0 : Fin 2) * 8 + 1 * j.val = j.val; rw [e0]; omega
  | ⟨1, _⟩ => show win0_2.index t (1 : Fin 2) * 128 + 1 * q.val = q.val; rw [e1]; omega

/-- Every point's block of the shift table is the whole table. -/
theorem shift_blk (c : Dev nD) (t : Fin cfg0.N) (j : Fin 8) (q : Fin 128) :
    (iblk m c 3 t : Vec Ideal S8x128 .f32) (ix2 j q) = (m ((c : Thread nD τ).loc main_arg3) : S8x128.Idx → EReal) (ix2 j q) := by
  obtain ⟨-, -, -, -, -, -, e0, e1, -⟩ := idx_facts t
  unfold iblk
  rw [View.read_apply]
  show (V m c main_arg3 : S8x128.Idx → EReal) _ = _
  rw [V_main_arg3]
  refine congrArg _ (funext fun a => Fin.ext ?_)
  match a with
  | ⟨0, _⟩ => show win0_3.index t (0 : Fin 2) * 8 + 1 * j.val = j.val; rw [e0]; omega
  | ⟨1, _⟩ => show win0_3.index t (1 : Fin 2) * 128 + 1 * q.val = q.val; rw [e1]; omega

/-! ## What a point writes back, the cover, the array -/

/-- WHAT POINT t WRITES BACK is block t of kerArr of the argument arrays. -/
theorem flushed_eq (c : Dev nD) (t : Fin cfg0.N) :
    (dats m 0 c).flushed 4 t = ((cfg0.win 4).blk t).view.read (Elt Ideal)
      (kerArr (m ((c : Thread nD τ).loc main_arg0)) (m ((c : Thread nD τ).loc main_arg1))
        (m ((c : Thread nD τ).loc main_arg2)) (m ((c : Thread nD τ).loc main_arg3))) := by
  rw [Value.flushed4]
  unfold out0_4
  rw [View.canon_unit_zero hz]
  simp only [View.ld_unit_zero (S := S10000x128) hz, View.ld_unit_zero (S := S10000x1) hz, View.ld_unit_zero (S := S8x128) hz]
  obtain ⟨-, -, -, -, -, -, -, -, e0, e1⟩ := idx_facts t
  have hN : cfg0.N = 200 := N_0
  refine funext fun (j : S10000x128.Idx) => ?_
  obtain ⟨p, q, rfl⟩ : ∃ (p : Fin 10000) (q : Fin 128), j = ix2 p q := ⟨j 0, j 1, eq_ix2 j⟩
  have hlt : 10000 * t.val + p.val < 2000000 := by have := t.isLt; have := p.isLt; omega
  have hemb : ((cfg0.win 4).blk t).view.emb (ix2 p q) = ix2 (⟨10000 * t.val + p.val, hlt⟩ : Fin 2000000) q :=
    funext fun a => Fin.ext (by
      match a with
      | ⟨0, _⟩ => show win0_4.index t (0 : Fin 2) * 10000 + 1 * p.val = 10000 * t.val + p.val; rw [e0]; omega
      | ⟨1, _⟩ => show win0_4.index t (1 : Fin 2) * 128 + 1 * q.val = q.val; rw [e1]; omega)
  show k0_pay1 (iblk m c 1 t) (iblk m c 0 t) (iblk m c 2 t) (iblk m c 3 t) (ix2 p q)
    = kerArr _ _ _ _ (((cfg0.win 4).blk t).view.emb (ix2 p q))
  rw [hemb]
  refine (Ker.pay_at _ _ _ _ p q).trans ?_
  have h0 := words_blk m c t p ⟨10000 * t.val + p.val, hlt⟩ rfl
  have h1 : ∀ k, _ = _ := fun k => feat_blk m c t p k ⟨10000 * t.val + p.val, hlt⟩ rfl
  have h2 : ∀ j, _ = _ := fun j => scale_blk m c t j q
  have h3 : ∀ j, _ = _ := fun j => shift_blk m c t j q
  simp only [h0, h1, h2, h3]
  rfl

/-- An index of the result array is in point t's block iff each coordinate is in the block's range on its axis. -/
theorem mem_blk (t : Fin cfg0.N) (i : S2000000x128.Idx) :
    i ∈ ((cfg0.win 4).blk t).view.set ↔ ∀ a : Fin 2, win0_4.index t a * S10000x128.size a ≤ (i a).val
      ∧ (i a).val < win0_4.index t a * S10000x128.size a + S10000x128.size a := by
  show i ∈ ((View.whole main_v1).slice (win0_4.rect t)).set ↔ _
  rw [View.set_slice_whole, Rect.mem_set_unit]
  exact Iff.rfl

/-- THE COVER: row r of the result array is in the block of point r / 10000. -/
theorem cover (i : S2000000x128.Idx) :
    ∃ t : Fin cfg0.N, (cfg0.win 4).flush t = true ∧ i ∈ ((cfg0.win 4).blk t).view.set := by
  have hN : cfg0.N = 200 := N_0
  have hi0 : (i 0).val < 2000000 := (i 0).isLt
  have hi1 : (i 1).val < 128 := (i 1).isLt
  obtain ⟨t, ht⟩ : ∃ t : Fin cfg0.N, t.val = (i 0).val / 10000 := ⟨⟨(i 0).val / 10000, by omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 10000 ≤ (i 0).val ∧ (i 0).val < win0_4.index t (0 : Fin 2) * 10000 + 10000
    rw [e0, ht]; omega
  | ⟨1, _⟩ =>
    show win0_4.index t (1 : Fin 2) * 128 ≤ (i 1).val ∧ (i 1).val < win0_4.index t (1 : Fin 2) * 128 + 128
    rw [e1]; omega

/-- THE ARRAY after the run is kerArr of the argument arrays. -/
theorem final (c : Dev nD) : (dats m 0 c).arrAt 4 cfg0.N
    = kerArr (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-- The kernel's run, read: the result array at kerArr of the arguments, the arguments unchanged. -/
theorem run : θ_run defs (onTc (τ := τ) (main (F := Ideal))) ⟨m, fun _ => 0, ρ⟩ fun r => ∀ c : Dev nD,
      r.2.mem ((c : Thread nD τ).loc main_v1)
        = kerArr (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.TypeNorm.KerArr

end
-- ==== Proof.PreDecode.lean ====
/-
  The precondition, read back.  It is one bit: the conjunction of five "all entries satisfy ..." reductions.  When the
  bit is 1, every entry of the feature array has absolute value below +inf, so it is a real number, and every type
  word, read signed, is at least 0 and below 8, so its value is one of the table rows 0 .. 7.  (The precondition also
  bounds the two tables' entries; the equivalence does not use that.)
-/
import proofs.«144861_g51488067944936_feedfinal_406_6_alg».proof.Pre_finite_inputs
import Idealize.ShloMosaic.Lib.ReduceAll
import Idealize.ShloMosaic.Lib.ValueIdx
import Idealize.ShloMosaic.PureOps.Ideal.Laws

noncomputable section

namespace Cert.TypeNorm.Pre

open Idealize.ShloMosaic Idealize.ShloMosaic.ValueIdx Cert.Pre_finite_inputs

/-- The scalar shape has one index. -/
instance : Subsingleton S_.Idx := ⟨fun a b => funext fun d => d.elim0⟩

/-- An extended real whose absolute value compares below the word of +inf is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have htop : Ideal.ofBits .f32 0x7F800000#32 = ⊤ := by simp [Ideal.ofBits, Ideal.ieee]
  rw [Ideal.cmpf_def, Ideal.hostAbsf_def, Ideal.absf_def, htop] at h
  induction x using EReal.rec with
  | coe r => exact ⟨r, rfl⟩
  | bot => simp [Ideal.cmp] at h
  | top => simp [Ideal.cmp] at h

/-- A 32-bit word that is at least 0 and below 8, read signed, has one of the values 0 .. 7. -/
theorem word_range (w : BitVec 32) (h0 : IntOp.cmpi .sge w 0#32 = 1#1) (h8 : IntOp.cmpi .slt w 8#32 = 1#1) :
    ∃ n : Fin 8, w.toNat = n.val := by
  have a := IntOp.cmpi_sge.1 h0
  have b := IntOp.cmpi_slt.1 h8
  have z0 : (0#32 : BitVec 32).toInt = 0 := by decide
  have z8 : (8#32 : BitVec 32).toInt = 8 := by decide
  rw [z0] at a; rw [z8] at b
  have hw := w.isLt
  rw [BitVec.toInt_eq_toNat_cond] at a b
  have hlt : w.toNat < 8 := by
    by_cases hc : 2 * w.toNat < 2 ^ 32
    · rw [if_pos hc] at a b; omega
    · rw [if_neg hc] at a b; omega
  exact ⟨⟨w.toNat, hlt⟩, rfl⟩

variable [Cert.Pre_finite_inputs.Facts]
open Cert.Pre_finite_inputs.Facts

/-- THE PRECONDITION DECODED: every feature is a real number and every type word names a table row. -/
theorem decode (tw : IVec S2000000 32) (x : FVec Ideal S2000000x128 .f32) (g b : FVec Ideal S8x128 .f32)
    (h : Cert.Pre_finite_inputs.fn (F := Ideal) tw x g b = fun _ => 1#1) :
    (∀ i : S2000000x128.Idx, ∃ r : ℝ, x i = (r : EReal)) ∧ (∀ i : S2000000.Idx, ∃ n : Fin 8, (tw i).toNat = n.val) := by
  have e := congrFun h ix0
  unfold Cert.Pre_finite_inputs.fn Cert.Pre_finite_inputs.fn_part1 at e
  dsimp only at e
  simp only [andi, IntOp.andi_eq_one] at e
  obtain ⟨⟨⟨⟨hx, -⟩, -⟩, h0⟩, h8⟩ := e
  refine ⟨fun i => ?_, fun i => ?_⟩
  · exact real_of_abs_lt (x i) (Host.reduce_andi_all _ _ _ _ ix0 hx i)
  · exact word_range (tw i) (Host.reduce_andi_all _ _ _ _ ix0 h0 i) (Host.reduce_andi_all _ _ _ _ ix0 h8 i)

end Cert.TypeNorm.Pre

end
-- ==== Proof.lean ====
/-
  Per-row layer normalisation over 128 features followed by a type-indexed affine map, 2000000 rows, 8 types: the
  fused kernel against the jnp reference, equal as extended reals under the precondition that every feature, scale
  and shift is finite and every type word is one of the table rows 0 .. 7.

  The kernel computes each row's mean and mean of squares by products with a column of ones, the variance in one pass
  as max (E x² − (E x)², 0), looks the row's scale and shift up by a one-hot matrix product with the two 8 x 128 tables,
  and stores (x − mean) · (rsqrt(var + ε) · scale) + shift; the reference computes the variance in two passes as
  E (x − E x)², gathers the scale and shift rows, and returns ((x − mean) · rsqrt(var + ε)) · scale + shift.

  * RowNorm: the two scalar formulas and the law between them — on a row of real numbers the two variances are the
    same real number, and on a type word that names a table row the one-hot sum is that row's entry.
  * KerRow, KerArray: the kernel's body at an entry of a block is the one-pass formula; every block is a restriction
    of the argument arrays, and the 200 blocks cover the result, so the result array is one function of the arguments.
  * RefRow: the reference at an entry is the two-pass formula, at the table row the gather clamps the type word to.
  * PreDecode: the precondition gives real features and type words in 0 .. 7.

  Both programs leave their arguments unchanged and terminate (the three frames: the kernel's two by the generated
  frame certificates, the reference's by its generated run); the idealization rewrote nothing, so the second-to-last
  conjunct is trivial.
-/
import proofs.«144861_g51488067944936_feedfinal_406_6_alg».proof.Defs
import proofs.«144861_g51488067944936_feedfinal_406_6_alg».proof.Proof.Gen.Kernel
import proofs.«144861_g51488067944936_feedfinal_406_6_alg».proof.Proof.Gen.Kernel.Skeleton
import proofs.«144861_g51488067944936_feedfinal_406_6_alg».proof.Proof.Gen.Kernel.Launch
import proofs.«144861_g51488067944936_feedfinal_406_6_alg».proof.Proof.Gen.Kernel.Points
import proofs.«144861_g51488067944936_feedfinal_406_6_alg».proof.Proof.Gen.Kernel.Frame
import proofs.«144861_g51488067944936_feedfinal_406_6_alg».proof.Proof.Gen.KernelIdeal
import proofs.«144861_g51488067944936_feedfinal_406_6_alg».proof.Proof.Gen.KernelIdeal.Skeleton
import proofs.«144861_g51488067944936_feedfinal_406_6_alg».proof.Proof.Gen.KernelIdeal.Launch
import proofs.«144861_g51488067944936_feedfinal_406_6_alg».proof.Proof.Gen.KernelIdeal.Points
import proofs.«144861_g51488067944936_feedfinal_406_6_alg».proof.Proof.Gen.KernelIdeal.Frame
import proofs.«144861_g51488067944936_feedfinal_406_6_alg».proof.Proof.Gen.ReferenceIdeal
import proofs.«144861_g51488067944936_feedfinal_406_6_alg».proof.Proof.Gen.KernelIdeal.Value
import proofs.«144861_g51488067944936_feedfinal_406_6_alg».proof.Proof.Gen.ReferenceIdeal.Run
import proofs.«144861_g51488067944936_feedfinal_406_6_alg».proof.Proof.Gen.ReferenceIdeal.Read
import proofs.«144861_g51488067944936_feedfinal_406_6_alg».proof.Proof.Gen.Pre_finite_inputs
import proofs.«144861_g51488067944936_feedfinal_406_6_alg».proof.Proof.RowNorm
import proofs.«144861_g51488067944936_feedfinal_406_6_alg».proof.Proof.RefRow
import proofs.«144861_g51488067944936_feedfinal_406_6_alg».proof.Proof.KerArray
import proofs.«144861_g51488067944936_feedfinal_406_6_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed terminates without a fault and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals, from memories that agree on the four arguments and satisfy the precondition, the
    kernel's result array (one function of the arguments, entry by entry the one-pass row formula) and the
    reference's (entry by entry the two-pass row formula at the gathered scale and shift) are equal: at every entry
    the row is real and the type word names a table row, which is what the law between the two formulas asks. -/
theorem algebraic : Cert.algebraic_KernelIdeal_ReferenceIdeal := by
  intro m ρ m' ρ' hpre hagree
  refine ⟨fun c => Cert.TypeNorm.KerArr.kerArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.TypeNorm.KerArr.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3⟩ := hagree c
  rw [a0, a1, a2, a3, Cert.ReferenceIdeal.Read.val_main_v33_eq]
  obtain ⟨hx, ht⟩ := Cert.TypeNorm.Pre.decode _ _ _ _ (hpre c)
  funext i
  obtain ⟨r, q, rfl⟩ : ∃ (r : Fin 2000000) (q : Fin 128), i = ix2 r q := ⟨i 0, i 1, eq_ix2 i⟩
  obtain ⟨n, hn⟩ := ht (ix1 r)
  rw [Cert.TypeNorm.Ref.ref_at _ _ _ _ r q n hn]
  exact (Cert.TypeNorm.kerRow_eq_refRow _ _
    (fun j => m ((c.tc : Thread Cert.KernelIdeal.nD Cert.KernelIdeal.τ).loc Cert.KernelIdeal.main_arg2) (ix2 j q))
    (fun j => m ((c.tc : Thread Cert.KernelIdeal.nD Cert.KernelIdeal.τ).loc Cert.KernelIdeal.main_arg3) (ix2 j q))
    q n (fun k => hx (ix2 r k)) hn).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
